-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x4096 : Shape := ⟨2, ![1024, 4096]⟩
abbrev S1024x16 : Shape := ⟨2, ![1024, 16]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S1024x4096, .f32⟩
  | .local _ .vmem, ⟨1, _⟩ => ⟨S1024x4096, .f32⟩
  | .local _ .vmem, ⟨2, _⟩ => ⟨S1024x16, .f32⟩
  | .local _ .vmem, ⟨3, _⟩ => ⟨S1024x16, .f32⟩
  | .local _ .vmem, ⟨4, _⟩ => ⟨S16x4096, .f32⟩
  | .local _ .vmem, ⟨5, _⟩ => ⟨S1024x4096, .bf16⟩
  | .local _ .vmem, ⟨6, _⟩ => ⟨S1024x4096, .bf16⟩
  | .local _ .vmem, ⟨7, _⟩ => ⟨S1024x4096, .f32⟩
  | .local _ .vmem, ⟨8, _⟩ => ⟨S1024x4096, .f32⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  ![v12.toNat, c0_i32_4.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  ![c0_i32_4.toNat, v12.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  ![arg0.toNat, v12.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  inb_S16x4096_S16x4096_0_0 : ∀ a, (![0, 0] : Fin 2 → Nat) a + S16x4096.size a ≤ S16x4096.size a
  h_S16x4096 : 0 < S16x4096.numel
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x16_S16x4096_S1024x4096_1_0_0_1_n_n_wf : DotDims.WF S1024x16 S16x4096 S1024x4096 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .bf16 = 32 ∨ (Rect.block (s := S4096x4096) S1024x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S1024x16_S16x4096_S1024x4096_1_0_0_1_n_n : DotDims S1024x16 S16x4096 S1024x4096 where
  lhsContracting := [1]
  rhsContracting := [0]
  lhsNonContracting := [0]
  rhsNonContracting := [1]
  lhsBatch := []
  rhsBatch := []
  wf := dot_S1024x16_S16x4096_S1024x4096_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LibFoldedUpdate.lean ====
/-
  A low-rank update folded into a weight before the product, against the update applied after it — over the real numbers,
  for any finite index types — and the reading of a finite real sum in the extended reals.
-/
import Idealize.ShloMosaic.PureOps.Ideal

namespace Cert.LibFoldedUpdate

/-- A finite sum of real numbers, read in the extended reals, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a vector x and a weight row w over a finite axis D, thin factors a (R × D) and b (over R), a bias β and a scale c:
    contracting x against the folded row  w + (∑ r, b r · a r ·) · c  and adding β is the base contraction plus β, plus the
    scaled update taken through the thin factor first. Distribute x over the folded row, exchange the sums over D and R,
    regroup. -/
theorem folded_update_law {D R : Type*} [Fintype D] [Fintype R] (x w : D → ℝ) (a : R → D → ℝ) (b : R → ℝ) (β c : ℝ) :
    (∑ d, x d * (w d + (∑ r, b r * a r d) * c)) + β
      = ((∑ d, x d * w d) + β) + (∑ r, (∑ d, x d * a r d) * b r) * c := by
  have h1 : ∀ d, x d * (w d + (∑ r, b r * a r d) * c) = x d * w d + (∑ r, x d * a r d * b r) * c := by
    intro d
    rw [mul_add, ← mul_assoc, Finset.mul_sum]
    congr 2
    exact Finset.sum_congr rfl fun r _ => by ring
  simp only [h1, Finset.sum_add_distrib, ← Finset.sum_mul]
  rw [Finset.sum_comm]
  simp only [Finset.sum_mul]
  ring

end Cert.LibFoldedUpdate
-- ==== Proof.Spec.lean ====
/-
  The two sides of the claim as functions of the argument arrays, coordinate by coordinate, and the law that joins them.

  Write x for the activations [4, 2048, 4096], W for the weight [4096, 4096], β for the bias [4096], A [16, 4096] and
  B [4096, 16] for the two low-rank factors and c for the scale. The kernel first folds the low-rank update into the weight,
      W'(o, d) = W(o, d) + (∑ r, B(o, r) · A(r, d)) · c,
  and then takes one full contraction per output element,
      y(b, s, o) = (∑ d, x(b, s, d) · W'(o, d)) + β(o).
  The reference keeps the update apart and multiplies through the thin factor first,
      y'(b, s, o) = ((∑ d, x(b, s, d) · W(o, d)) + β(o)) + (∑ r, (∑ d, x(b, s, d) · A(r, d)) · B(o, r)) · c.
  The two agree by distributing x(b, s, d) over W'(o, d), exchanging the sums over d and r, and regrouping (the law over
  the reals is Proof/LibFoldedUpdate.lean) — steps that hold
  for real numbers but not at the infinities of the extended reals, which is why the law is stated for arrays whose
  entries are all real.
-/
import Idealize.ShloMosaic.PureOps.Ideal
import Idealize.ShloMosaic.Lib.ValueIdx
import proofs.«182044_g43508018709279_pilotgen1_583_22_alg».proof.Proof.LibFoldedUpdate

noncomputable section

namespace Cert.Lora

open Idealize.ShloMosaic Idealize.ShloMosaic.ValueIdx Cert.LibFoldedUpdate

/-- The activations' shape. -/
abbrev SX : Shape := ⟨3, ![4, 2048, 4096]⟩
/-- The weight's shape. -/
abbrev SW : Shape := ⟨2, ![4096, 4096]⟩
/-- The bias's shape. -/
abbrev Sβ : Shape := ⟨1, ![4096]⟩
/-- The first low-rank factor's shape. -/
abbrev SA : Shape := ⟨2, ![16, 4096]⟩
/-- The second low-rank factor's shape. -/
abbrev SB : Shape := ⟨2, ![4096, 16]⟩

/-- Every entry of an array of extended reals is a real number. -/
def AllReal {s : Shape} (f : s.Idx → EReal) : Prop := ∀ i, ∃ r : ℝ, f i = (r : EReal)

/-- The scale, as the value its binary pattern denotes. -/
def scale : EReal := Ideal.ofBits .f32 0x40000000#32

/-- The pattern denotes the real number two. -/
theorem scale_eq : scale = ((2 : ℝ) : EReal) := by
  unfold scale
  simp [Ideal.ofBits, Ideal.ieee, -EReal.coe_mul]; norm_num

/-- The folded weight at row o, column d. -/
def foldedAt (W : SW.Idx → EReal) (B : SB.Idx → EReal) (A : SA.Idx → EReal) (o d : Fin 4096) : EReal :=
  W (ix2 o d) + (∑ r : Fin 16, B (ix2 o r) * A (ix2 r d)) * scale

/-- The folded weight as an array. -/
def folded (W : SW.Idx → EReal) (B : SB.Idx → EReal) (A : SA.Idx → EReal) : SW.Idx → EReal :=
  fun i => foldedAt W B A ⟨(i 0).val, (i 0).isLt⟩ ⟨(i 1).val, (i 1).isLt⟩

theorem folded_ix2 (W : SW.Idx → EReal) (B : SB.Idx → EReal) (A : SA.Idx → EReal) (o d : Fin 4096) :
    folded W B A (ix2 o d) = foldedAt W B A o d := rfl

/-- The kernel's result at (b, s, o): one contraction against the folded weight, plus the bias. -/
def kernelAt (x : SX.Idx → EReal) (W : SW.Idx → EReal) (β : Sβ.Idx → EReal) (A : SA.Idx → EReal) (B : SB.Idx → EReal)
    (b : Fin 4) (s : Fin 2048) (o : Fin 4096) : EReal :=
  (∑ d : Fin 4096, x (ix3 b s d) * foldedAt W B A o d) + β (ix1 o)

/-- The reference's result at (b, s, o): the base product plus the bias, plus the scaled low-rank update. -/
def refAt (x : SX.Idx → EReal) (W : SW.Idx → EReal) (β : Sβ.Idx → EReal) (A : SA.Idx → EReal) (B : SB.Idx → EReal)
    (b : Fin 4) (s : Fin 2048) (o : Fin 4096) : EReal :=
  ((∑ d : Fin 4096, x (ix3 b s d) * W (ix2 o d)) + β (ix1 o))
    + (∑ r : Fin 16, (∑ d : Fin 4096, x (ix3 b s d) * A (ix2 r d)) * B (ix2 o r)) * scale

/-- The kernel's result as an array. -/
def kernelOut (x : SX.Idx → EReal) (W : SW.Idx → EReal) (β : Sβ.Idx → EReal) (A : SA.Idx → EReal) (B : SB.Idx → EReal) :
    SX.Idx → EReal :=
  fun i => kernelAt x W β A B ⟨(i 0).val, (i 0).isLt⟩ ⟨(i 1).val, (i 1).isLt⟩ ⟨(i 2).val, (i 2).isLt⟩

/-- The reference's result as an array. -/
def refOut (x : SX.Idx → EReal) (W : SW.Idx → EReal) (β : Sβ.Idx → EReal) (A : SA.Idx → EReal) (B : SB.Idx → EReal) :
    SX.Idx → EReal :=
  fun i => refAt x W β A B ⟨(i 0).val, (i 0).isLt⟩ ⟨(i 1).val, (i 1).isLt⟩ ⟨(i 2).val, (i 2).isLt⟩

/-- On arrays whose entries are all real the kernel's function is the reference's. -/
theorem kernelOut_eq_refOut (x : SX.Idx → EReal) (W : SW.Idx → EReal) (β : Sβ.Idx → EReal) (A : SA.Idx → EReal)
    (B : SB.Idx → EReal) (hx : AllReal x) (hW : AllReal W) (hβ : AllReal β) (hA : AllReal A) (hB : AllReal B) :
    kernelOut x W β A B = refOut x W β A B := by
  choose x' hx' using hx
  choose W' hW' using hW
  choose β' hβ' using hβ
  choose A' hA' using hA
  choose B' hB' using hB
  funext i
  unfold kernelOut refOut kernelAt refAt foldedAt
  simp only [hx', hW', hβ', hA', hB', scale_eq, ← EReal.coe_mul, ← coe_sum, ← EReal.coe_add]
  exact congrArg _ (folded_update_law _ _ _ _ _ _)

end Cert.Lora

end
-- ==== Proof.Finite.lean ====
/-
  The precondition, read back as a fact about numbers.

  The precondition takes, for each of the five argument arrays, the conjunction over all indices of "|entry| < +∞" and
  conjoins the five answers. Over the extended reals an entry whose absolute value is below +∞ is neither infinity, hence a
  real number; so where the precondition holds every entry of every argument is real — which is what the law joining the two
  sides of the claim needs.
-/
import proofs.«182044_g43508018709279_pilotgen1_583_22_alg».proof.Pre_finite_inputs
import proofs.«182044_g43508018709279_pilotgen1_583_22_alg».proof.Proof.Spec
import Idealize.ShloMosaic.PureOps.Ideal
import Idealize.ShloMosaic.Lib.ValueIdx
import Idealize.ShloMosaic.Lib.ReduceAll

noncomputable section
namespace Cert.Lora
open Idealize.ShloMosaic

/-- The single-precision pattern with an all-ones exponent, a zero fraction and a clear sign denotes +∞. -/
private theorem ofBits_inf : Ideal.ofBits .f32 0x7F800000#32 = (⊤ : EReal) := by
  simp [Ideal.ofBits, Ideal.ieee]

/-- An extended real whose absolute value, the larger of it and its negation, lies strictly below +∞ is a real
    number: at +∞ the value itself, and at -∞ its negation, is +∞, which is not below itself. -/
private theorem real_of_abs_lt_top (v : EReal) (h : max v (-v) < ⊤) : ∃ r : ℝ, v = (r : EReal) := by
  induction v using EReal.rec with
  | bot => simp at h
  | coe r => exact ⟨r, rfl⟩
  | top => simp at h

/-- The same at the level of one float: if the comparison "|v| < +∞" answers true, then v is a real number. -/
private theorem real_of_cmp (v : Ideal .f32)
    (h : FloatOps.cmpf .olt (FloatOps.hostAbsf v) (FloatOps.ofBits (F := Ideal) .f32 0x7F800000#32) = 1#1) :
    ∃ r : ℝ, (v : EReal) = (r : EReal) := by
  apply real_of_abs_lt_top
  have h' : Ideal.cmp .olt (max (v : EReal) (-v)) (Ideal.ofBits .f32 0x7F800000#32) = 1#1 := h
  rw [ofBits_inf] at h'
  by_contra hn
  simp [Ideal.cmp, hn] at h'

/-- One array: if the conjunction over all indices of "|a i| < +∞" (a reduction by `and` from 1 over every axis) is
    true, then every entry of the array is a real number. -/
private theorem allReal_of_all_lt {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    AllReal a := by
  haveI : Subsingleton Cert.Pre_finite_inputs.S_.Idx := ⟨fun p q => funext fun d => d.elim0⟩
  intro i
  exact real_of_cmp (a i) (Host.reduce_andi_all _ _ hr hu ValueIdx.ix0 e i)

/-- The precondition read back. It computes, for each of the five argument arrays, the conjunction over all indices
    of "|entry| < +∞", and conjoins the five answers; if the result is true then each of the five conjunctions is
    true, so every entry of every array is a real number. -/
theorem allReal_of_finite_inputs [Cert.Pre_finite_inputs.Facts]
    (x : FVec Ideal Cert.Pre_finite_inputs.S4x2048x4096 .f32) (W : FVec Ideal Cert.Pre_finite_inputs.S4096x4096 .f32)
    (β : FVec Ideal Cert.Pre_finite_inputs.S4096 .f32) (A : FVec Ideal Cert.Pre_finite_inputs.S16x4096 .f32)
    (B : FVec Ideal Cert.Pre_finite_inputs.S4096x16 .f32)
    (h : Cert.Pre_finite_inputs.fn (F := Ideal) x W β A B = (fun _ => 1#1)) :
    AllReal x ∧ AllReal W ∧ AllReal β ∧ AllReal A ∧ AllReal B := by
  have h0 := congrFun h ValueIdx.ix0
  dsimp only [Cert.Pre_finite_inputs.fn, Cert.Pre_finite_inputs.fn_part1] at h0
  obtain ⟨h0123, hB⟩ := IntOp.andi_eq_one.1 h0
  obtain ⟨h012, hA⟩ := IntOp.andi_eq_one.1 h0123
  obtain ⟨h01, hβ⟩ := IntOp.andi_eq_one.1 h012
  obtain ⟨hx, hW⟩ := IntOp.andi_eq_one.1 h01
  exact ⟨allReal_of_all_lt x _ _ _ hx, allReal_of_all_lt W _ _ _ hW, allReal_of_all_lt β _ _ _ hβ,
    allReal_of_all_lt A _ _ _ hA, allReal_of_all_lt B _ _ _ hB⟩

end Cert.Lora
end
-- ==== Proof.RefStages.lean ====
/-
  The reference's result, read index by index, is the reference's function of the specification.

  Its ten host operations are three contractions (activations against the weight; activations against the first low-rank
  factor; that thin product against the second factor), the bias spread over the leading axes, the scale spread over the
  whole shape, a product and two sums. Read at an index (b, s, o) each contraction is a plain sum over its contracted axis, each
  spread reads its operand at the coordinates it keeps, and what is left is
      ((∑ d, x(b, s, d) · W(o, d)) + β(o)) + (∑ r, (∑ d, x(b, s, d) · A(r, d)) · B(o, r)) · c.
-/
import proofs.«182044_g43508018709279_pilotgen1_583_22_alg».proof.Defs
import proofs.«182044_g43508018709279_pilotgen1_583_22_alg».proof.Proof.Gen.ReferenceIdeal.Run
import proofs.«182044_g43508018709279_pilotgen1_583_22_alg».proof.Proof.Gen.ReferenceIdeal.Read
import proofs.«182044_g43508018709279_pilotgen1_583_22_alg».proof.Proof.Spec

noncomputable section

namespace Cert.Lora

open Idealize.ShloMosaic Idealize.ShloMosaic.ValueIdx
open Cert.ReferenceIdeal Cert.ReferenceIdeal.Read

/-- The last stage of the reference, as an array, is the specification's reference function of the five arguments. -/
theorem ref_stage_eq (x0 : FVec Ideal S4x2048x4096 .f32) (x1 : FVec Ideal S4096x4096 .f32) (x2 : FVec Ideal S4096 .f32)
    (x3 : FVec Ideal S16x4096 .f32) (x4 : FVec Ideal S4096x16 .f32) :
    val_main_v8 (F := Ideal) x0 x1 x2 x3 x4 = refOut x0 x1 x2 x3 x4 := by
  funext i
  have eL0 : ∀ k : Fin 4096, lidx_main_v0 i k = ix3 ⟨(i 0).val, (i 0).isLt⟩ ⟨(i 1).val, (i 1).isLt⟩ k := fun k =>
    funext fun a => Fin.ext (by match a with | ⟨0, _⟩ => rfl | ⟨1, _⟩ => rfl | ⟨2, _⟩ => rfl)
  have eR0 : ∀ k : Fin 4096, ridx_main_v0 i k = ix2 ⟨(i 2).val, (i 2).isLt⟩ k := fun k =>
    funext fun a => Fin.ext (by match a with | ⟨0, _⟩ => rfl | ⟨1, _⟩ => rfl)
  have eB : idx_main_v1 (idx_main_v2 i) = ix1 ⟨(i 2).val, (i 2).isLt⟩ :=
    funext fun a => Fin.ext (by match a with | ⟨0, _⟩ => rfl)
  have eL4 : ∀ (r : Fin 16) (k : Fin 4096), lidx_main_v4 (lidx_main_v5 i r) k
      = ix3 ⟨(i 0).val, (i 0).isLt⟩ ⟨(i 1).val, (i 1).isLt⟩ k := fun r k =>
    funext fun a => Fin.ext (by match a with | ⟨0, _⟩ => rfl | ⟨1, _⟩ => rfl | ⟨2, _⟩ => rfl)
  have eR4 : ∀ (r : Fin 16) (k : Fin 4096), ridx_main_v4 (lidx_main_v5 i r) k = ix2 r k := fun r k =>
    funext fun a => Fin.ext (by match a with | ⟨0, _⟩ => rfl | ⟨1, _⟩ => rfl)
  have eR5 : ∀ r : Fin 16, ridx_main_v5 i r = ix2 ⟨(i 2).val, (i 2).isLt⟩ r := fun r =>
    funext fun a => Fin.ext (by match a with | ⟨0, _⟩ => rfl | ⟨1, _⟩ => rfl)
  rw [val_main_v8_apply, val_main_v3_apply, val_main_v0_apply, val_main_v2_apply, val_main_v1_apply,
    val_main_v7_apply, val_main_v5_apply, val_main_v6_apply, val_main_cst_apply]
  simp only [val_main_v4_apply, eL0, eR0, eB, eL4, eR4, eR5, Ideal.addf_def, Ideal.mulf_def, Ideal.ofBits_def]
  rfl

end Cert.Lora

end
-- ==== Proof.KernelRun.lean ====
/-
  The idealized kernel's run with its result named.

  The program is four stretches in order: two host reshapes, the weight-folding launch, the product launch, one host
  reshape. The buffer contents at each boundary are a fold from the launch memory: a host stretch applies its operations, a
  launch leaves each of its arrays at what its write-backs make of it and every other buffer as it was. Every weakly fair
  execution terminates with every unscoped buffer at the last boundary's contents; in particular the result buffer holds the
  last fold's value there, and the five arguments hold what they were launched with.
-/
import proofs.«182044_g43508018709279_pilotgen1_583_22_alg».proof.Proof.Gen.KernelIdeal.Frame

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result and at the arguments: the result buffer holds the last boundary's contents, each
    argument what it was launched with. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩)
    (run_boundary m ρ)

end Cert.KernelIdeal.Run

end
-- ==== Proof.Payloads.lean ====
/-
  What each of the two kernel bodies stores, read at coordinates.

  The first body holds a block of 1024 rows of the weight, the same rows of the second low-rank factor and the whole first
  factor; at row p, column q of the block it stores  w(p, q) + (∑ r, b(p, r) · a(r, q)) · c : the matrix product into a zero
  accumulator is the plain sum over the contracted axis, and the change of float format is the identity on extended reals.

  The second body holds 1024 rows of activations, 512 rows of the folded weight and the matching 512 bias entries as a
  [1, 512] row; at row p, column q it stores  (∑ d, x(p, d) · w'(q, d)) + β(0, q) : both operands are contracted along their
  second axis, the shape casts are to the same shape, and the bias row is spread down the rows.
-/
import proofs.«182044_g43508018709279_pilotgen1_583_22_alg».proof.Proof.Gen.KernelIdeal.Skeleton
import proofs.«182044_g43508018709279_pilotgen1_583_22_alg».proof.Proof.Spec
import Idealize.ShloMosaic.Lib.Pipeline.Value
import Idealize.ShloMosaic.Lib.ValueIdx
import Idealize.ShloMosaic.PureOps.Ideal.Laws

noncomputable section

namespace Cert.Lora

open Idealize.ShloMosaic Idealize.ShloMosaic.ValueIdx Cert.KernelIdeal Cert.KernelIdeal.Gen

/-! ## The first body: the low-rank product folded into a block of the weight -/

theorem prep_lhs0 (i : S1024x4096.Idx) (k : dot_S1024x16_S16x4096_S1024x4096_1_0_0_1_n_n.contr.Idx) :
    (dot_S1024x16_S16x4096_S1024x4096_1_0_0_1_n_n.lhsIdx i k 0).val = (i 0).val := by
  unfold DotDims.lhsIdx
  rw [dif_neg (show ¬(0 : Fin S1024x16.rank) ∈ dot_S1024x16_S16x4096_S1024x4096_1_0_0_1_n_n.lhsBatch by decide),
    dif_pos (show (0 : Fin S1024x16.rank) ∈ dot_S1024x16_S16x4096_S1024x4096_1_0_0_1_n_n.lhsNonContracting by decide)]
  rfl

theorem prep_rhs1 (i : S1024x4096.Idx) (k : dot_S1024x16_S16x4096_S1024x4096_1_0_0_1_n_n.contr.Idx) :
    (dot_S1024x16_S16x4096_S1024x4096_1_0_0_1_n_n.rhsIdx i k 1).val = (i 1).val := by
  unfold DotDims.rhsIdx
  rw [dif_neg (show ¬(1 : Fin S16x4096.rank) ∈ dot_S1024x16_S16x4096_S1024x4096_1_0_0_1_n_n.rhsBatch by decide),
    dif_pos (show (1 : Fin S16x4096.rank) ∈ dot_S1024x16_S16x4096_S1024x4096_1_0_0_1_n_n.rhsNonContracting by decide)]
  rfl

/-- The block's matrix product into the zero accumulator, at (p, q): the sum over the rank axis. -/
theorem prep_matmul (v0 : FVec Ideal S1024x16 .f32) (v1 : FVec Ideal S16x4096 .f32) (p : Fin 1024) (q : Fin 4096) :
    matmul dot_S1024x16_S16x4096_S1024x4096_1_0_0_1_n_n none v0 v1 (constant (F := Ideal) S1024x4096 .f32 0x00000000#32) (ix2 p q)
      = ∑ r : Fin 16, v0 (ix2 p r) * v1 (ix2 r q) := by
  show FloatOps.matmul dot_S1024x16_S16x4096_S1024x4096_1_0_0_1_n_n none v0 v1 (constant (F := Ideal) S1024x4096 .f32 0x00000000#32) (ix2 p q) = _
  rw [Ideal.matmul_constant_zero_apply, ← Equiv.sum_comp (contrEquiv1 dot_S1024x16_S16x4096_S1024x4096_1_0_0_1_n_n 16 rfl rfl).symm]
  refine Finset.sum_congr rfl fun k _ => ?_
  have hk := contrEquiv1_symm_val dot_S1024x16_S16x4096_S1024x4096_1_0_0_1_n_n 16 rfl rfl k
  have el : dot_S1024x16_S16x4096_S1024x4096_1_0_0_1_n_n.lhsIdx (ix2 p q) ((contrEquiv1 dot_S1024x16_S16x4096_S1024x4096_1_0_0_1_n_n 16 rfl rfl).symm k) = ix2 p k := funext fun a => Fin.ext (by
    match a with
    | ⟨0, _⟩ => exact prep_lhs0 _ _
    | ⟨1, _⟩ => exact (dot_S1024x16_S16x4096_S1024x4096_1_0_0_1_n_n.lhsIdx_val_of_single rfl _ _).trans hk)
  have er : dot_S1024x16_S16x4096_S1024x4096_1_0_0_1_n_n.rhsIdx (ix2 p q) ((contrEquiv1 dot_S1024x16_S16x4096_S1024x4096_1_0_0_1_n_n 16 rfl rfl).symm k) = ix2 k q := funext fun a => Fin.ext (by
    match a with
    | ⟨0, _⟩ => exact (dot_S1024x16_S16x4096_S1024x4096_1_0_0_1_n_n.rhsIdx_val_of_single rfl _ _).trans hk
    | ⟨1, _⟩ => exact prep_rhs1 _ _)
  rw [el, er]

/-- What the first body stores at (p, q) of its block. -/
theorem prep_payload (v0 : FVec Ideal S1024x16 .f32) (v1 : FVec Ideal S16x4096 .f32) (v3 : FVec Ideal S1024x4096 .f32)
    (p : Fin 1024) (q : Fin 4096) :
    k0_pay1 (F := Ideal) v0 v1 v3 (ix2 p q) = v3 (ix2 p q) + (∑ r : Fin 16, v0 (ix2 p r) * v1 (ix2 r q)) * scale := by
  unfold k0_pay1
  show v3 (ix2 p q) + matmul dot_S1024x16_S16x4096_S1024x4096_1_0_0_1_n_n none v0 v1 (constant (F := Ideal) S1024x4096 .f32 0x00000000#32) (ix2 p q) * scale = _
  rw [prep_matmul]

/-! ## The second body: one full contraction per output element, plus the bias -/

theorem mm_lhs0 (i : S1024x512.Idx) (k : dot_S1024x4096_S512x4096_S1024x512_1_1_0_0_n_n.contr.Idx) :
    (dot_S1024x4096_S512x4096_S1024x512_1_1_0_0_n_n.lhsIdx i k 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

theorem mm_rhs0 (i : S1024x512.Idx) (k : dot_S1024x4096_S512x4096_S1024x512_1_1_0_0_n_n.contr.Idx) :
    (dot_S1024x4096_S512x4096_S1024x512_1_1_0_0_n_n.rhsIdx i k 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- The block's matrix product into the zero accumulator, at (p, q): both operands contracted along their second axis. -/
theorem mm_matmul (u0 : FVec Ideal S1024x4096 .bf16) (u1 : FVec Ideal S512x4096 .bf16) (p : Fin 1024) (q : Fin 512) :
    matmul dot_S1024x4096_S512x4096_S1024x512_1_1_0_0_n_n none u0 u1 (constant (F := Ideal) S1024x512 .f32 0x00000000#32) (ix2 p q)
      = ∑ d : Fin 4096, u0 (ix2 p d) * u1 (ix2 q d) := by
  show FloatOps.matmul dot_S1024x4096_S512x4096_S1024x512_1_1_0_0_n_n none u0 u1 (constant (F := Ideal) S1024x512 .f32 0x00000000#32) (ix2 p q) = _
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact mm_lhs0 _ _
    | ⟨1, _⟩ => exact (dot_S1024x4096_S512x4096_S1024x512_1_1_0_0_n_n.lhsIdx_val_of_single rfl _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact mm_rhs0 _ _
    | ⟨1, _⟩ => exact (dot_S1024x4096_S512x4096_S1024x512_1_1_0_0_n_n.rhsIdx_val_of_single rfl _ _).trans hk)
  rw [el, er]

/-- The bias row spread down the rows, at (p, q): the row's entry q. -/
theorem mm_bias (v6 : FVec Ideal S1x512 .f32) (p : Fin 1024) (q : Fin 512) :
    broadcastTo S1024x512 v6 broadcasts_S1x512_S1024x512 (ix2 p q) = v6 (ix2 (0 : Fin 1) q) :=
  broadcastTo_apply v6 broadcasts_S1x512_S1024x512 (ix2 p q) (ix2 (0 : Fin 1) q) (fun a => by
    match a with
    | ⟨0, _⟩ => show 0 = if (1 : Nat) = 1 then 0 else _; rw [if_pos rfl]
    | ⟨1, _⟩ => show q.val = if (512 : Nat) = 1 then 0 else q.val; rw [if_neg (by decide)])

/-- What the second body stores at (p, q) of its block. -/
theorem mm_payload (v0 : FVec Ideal S1024x4096 .f32) (v3 : FVec Ideal S512x4096 .bf16) (v6 : FVec Ideal S1x512 .f32)
    (p : Fin 1024) (q : Fin 512) :
    k1_pay1 (F := Ideal) v0 v3 v6 (ix2 p q) = (∑ d : Fin 4096, v0 (ix2 p d) * v3 (ix2 q d)) + v6 (ix2 (0 : Fin 1) q) := by
  unfold k1_pay1
  rw [shapeCast_self v0, shapeCast_self v3, shapeCast_self v6]
  show matmul dot_S1024x4096_S512x4096_S1024x512_1_1_0_0_n_n none (truncf .bf16 v0 bitsLt_bf16_f32) v3 (constant (F := Ideal) S1024x512 .f32 0x00000000#32) (ix2 p q)
      + broadcastTo S1024x512 v6 broadcasts_S1x512_S1024x512 (ix2 p q) = _
  rw [mm_matmul, mm_bias]
  rfl

end Cert.Lora

end
-- ==== Proof.PrepArray.lean ====
/-
  The weight-folding launch as one whole-array function.

  The launch walks four points; point t holds rows 1024·t … 1024·t + 1023 of the weight and of the second low-rank factor,
  and the whole first factor, and writes back the same rows of its result. Entry (p, q) of the block a point writes back is
  the folded weight at row 1024·t + p, column q, so each block is the restriction of ONE function of the entry contents,
  and the four blocks tile the array: after the launch the result array holds the folded weight, whatever the contents
  the launch was entered with.
-/
import proofs.«182044_g43508018709279_pilotgen1_583_22_alg».proof.Proof.Gen.KernelIdeal.Frame
import proofs.«182044_g43508018709279_pilotgen1_583_22_alg».proof.Proof.Payloads

set_option maxRecDepth 16384

noncomputable section

namespace Cert.Lora

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One block of the folded weight from the three blocks the body holds: entry (p, q) of the stored block is the folded
    weight at the array index i, given that the weight's block at (p, q) is the weight at i, that row p of the second
    factor's block is its row i 0, and that column q of the first factor is its column i 1. -/
theorem prep_block (W : SW.Idx → EReal) (B : SB.Idx → EReal) (A : SA.Idx → EReal)
    (x0 : FVec Ideal S1024x4096 .f32) (x1 : FVec Ideal S1024x16 .f32) (x2 : FVec Ideal S16x4096 .f32)
    (p : Fin 1024) (q : Fin 4096) (i : SW.Idx)
    (h0 : x0 (ix2 p q) = W i)
    (h1 : ∀ r : Fin 16, x1 (ix2 p r) = B (ix2 ⟨(i 0).val, (i 0).isLt⟩ r))
    (h2 : ∀ r : Fin 16, x2 (ix2 r q) = A (ix2 r ⟨(i 1).val, (i 1).isLt⟩)) :
    k0_pay1 (F := Ideal) x1 x2 x0 (ix2 p q) = folded W B A i := by
  rw [prep_payload, h0]
  simp only [h1, h2]
  unfold folded foldedAt
  exact congrArg (fun z => W z + _) (funext fun a => by
    match a with
    | ⟨0, _⟩ => rfl
    | ⟨1, _⟩ => rfl)

/-- The printed index maps over the four points: the weight's and the second factor's blocks move with the result's
    along the rows, nothing moves along the columns, and the first factor stays put. -/
theorem prep_index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 3 :=
  (by decide +kernel : ∀ t : Fin grid0.N, _)

/-- Every block row of the result is some point's. -/
theorem prep_index_onto : ∀ q0 : Fin 4, ∃ t : Fin cfg0.N, win0_3.index t = ![q0.val, 0] :=
  (by decide +kernel : ∀ q0 : Fin 4, ∃ t : Fin grid0.N, win0_3.index t = ![q0.val, 0])

/-- What point t writes back is block t of the folded weight of the entry contents. -/
theorem prep_flushed (c : Dev nD) (t : Fin cfg0.N) :
    (dat0 V c).flushed 3 t = ((cfg0.win 3).blk t).view.read (Elt Ideal)
      (folded (V c main_arg1) (V c main_arg4) (V c main_arg3)) := by
  show (cfg0.win 3).cut (grid0.coords t) ((dat0 V c).after 3 t) = _
  rw [after0_3]
  unfold out0_3
  rw [View.canon_unit_zero zero_offsets]
  simp only [View.ld_unit_zero (S := S1024x16) zero_offsets, View.ld_unit_zero (S := S16x4096) zero_offsets,
    View.ld_unit_zero (S := S1024x4096) zero_offsets]
  obtain ⟨e0, e1, e2, e3, e4, e5, e6, e7⟩ := prep_index_facts t
  funext j
  obtain ⟨p, q, rfl⟩ : ∃ (p : Fin 1024) (q : Fin 4096), j = ix2 p q := ⟨j 0, j 1, eq_ix2 j⟩
  refine prep_block (V c main_arg1) (V c main_arg4) (V c main_arg3) (iblk0 V c 0 t) (iblk0 V c 1 t) (iblk0 V c 2 t) p q
    (((cfg0.win 3).blk t).view.emb (ix2 p q)) ?_ ?_ ?_
  · show V c main_arg1 (((cfg0.win 0).blk t).view.emb (ix2 p q)) = V c main_arg1 (((cfg0.win 3).blk t).view.emb (ix2 p q))
    refine congrArg (V c main_arg1) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 4096 + 1 * q.val = win0_3.index t (1 : Fin 2) * 4096 + 1 * q.val; omega
  · intro r
    show V c main_arg4 (((cfg0.win 1).blk t).view.emb (ix2 p r)) = V c main_arg4 _
    refine congrArg (V c main_arg4) (funext fun a => Fin.ext ?_)
    match a with
    | ⟨0, _⟩ => show win0_1.index t (0 : Fin 2) * 1024 + 1 * p.val = win0_3.index t (0 : Fin 2) * 1024 + 1 * p.val; omega
    | ⟨1, _⟩ => show win0_1.index t (1 : Fin 2) * 16 + 1 * r.val = r.val; omega
  · intro r
    show V c main_arg3 (((cfg0.win 2).blk t).view.emb (ix2 r q)) = V c main_arg3 _
    refine congrArg (V c main_arg3) (funext fun a => Fin.ext ?_)
    match a with
    | ⟨0, _⟩ => show win0_2.index t (0 : Fin 2) * 16 + 1 * r.val = r.val; omega
    | ⟨1, _⟩ => show win0_2.index t (1 : Fin 2) * 4096 + 1 * q.val = win0_3.index t (1 : Fin 2) * 4096 + 1 * q.val; omega

/-- An index of the result array is in point t's block iff each coordinate is in the block's range on its axis. -/
theorem prep_mem_blk (t : Fin cfg0.N) (i : S4096x4096.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v2).slice (win0_3.rect t)).set ↔ _
  rw [View.set_slice_whole, Rect.mem_set_unit]
  exact Iff.rfl

/-- The four blocks tile the result array: row r lies in the block of the point whose block row is r / 1024. -/
theorem prep_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := prep_index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [prep_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 4096 ≤ (i 1).val ∧ (i 1).val < win0_3.index t (1 : Fin 2) * 4096 + 4096; omega

/-- After the launch the result array holds the folded weight of the entry contents. -/
theorem prep_array (c : Dev nD) :
    (dat0 V c).arrAt 3 cfg0.N = folded (V c main_arg1) (V c main_arg4) (V c main_arg3) :=
  (dat0 V c).arrAt_eq_of_cover 3 _ (fun t _ => prep_flushed V c t) prep_cover

end Cert.Lora

end
-- ==== Proof.MmArray.lean ====
/-
  The product launch as one whole-array function.

  The launch walks an 8 × 8 grid. Point (i, j) holds rows 1024·i … 1024·i + 1023 of the flattened activations, and — with
  k = j on even i and k = 7 − j on odd i, a back-and-forth walk over the columns — rows 512·k … 512·k + 511 of the folded weight
  and entries 512·k … 512·k + 511 of the bias row; it writes back the [1024, 512] block at block row i, block column k of its
  result. Entry (p, q) of that block is the full contraction of activation row 1024·i + p against folded-weight row 512·k + q,
  plus bias entry 512·k + q: each block is the restriction of ONE function of the entry contents. The walk visits every
  block column once in each block row, so the 64 blocks tile the result.
-/
import proofs.«182044_g43508018709279_pilotgen1_583_22_alg».proof.Proof.Gen.KernelIdeal.Frame
import proofs.«182044_g43508018709279_pilotgen1_583_22_alg».proof.Proof.Payloads
import proofs.«182044_g43508018709279_pilotgen1_583_22_alg».proof.Proof.PrepArray

set_option maxRecDepth 16384

noncomputable section

namespace Cert.Lora

open Idealize.ShloMosaic Idealize.ShloMosaic.TcCoe Idealize.ShloMosaic.ValueIdx Idealize.SL.Sem
open Cert.KernelIdeal Cert.KernelIdeal.Gen

/-- The flattened activations' and the flat result's shape. -/
abbrev SF : Shape := ⟨2, ![8192, 4096]⟩
/-- The bias as a row. -/
abbrev SR : Shape := ⟨2, ![1, 4096]⟩

/-- Rows against rows: entry (m, o) is the contraction of row m of X with row o of W', plus entry o of the bias row. -/
def rowsProduct (X : SF.Idx → EReal) (Wf : SW.Idx → EReal) (b2 : SR.Idx → EReal) : SF.Idx → EReal :=
  fun i => (∑ d : Fin 4096, X (ix2 ⟨(i 0).val, (i 0).isLt⟩ d) * Wf (ix2 ⟨(i 1).val, (i 1).isLt⟩ d))
    + b2 (ix2 (0 : Fin 1) ⟨(i 1).val, (i 1).isLt⟩)

variable (V : (c : Dev nD) → (b : Ref sig .tc) → Buf (Elt Ideal) ((c : Thread nD τ).loc b))

/-- One block of the product from the three blocks the body holds: entry (p, q) of the stored block is the product at
    the array index i, given that row p of the activations' block is row i 0 of the activations, that row q of the folded
    weight's block is its row i 1, and that entry q of the bias block is entry i 1 of the bias row. -/
theorem mm_block (X : SF.Idx → EReal) (Wf : SW.Idx → EReal) (b2 : SR.Idx → EReal)
    (x0 : FVec Ideal S1024x4096 .f32) (x1 : FVec Ideal S512x4096 .bf16) (x2 : FVec Ideal S1x512 .f32)
    (p : Fin 1024) (q : Fin 512) (i : SF.Idx)
    (h0 : ∀ d : Fin 4096, x0 (ix2 p d) = X (ix2 ⟨(i 0).val, (i 0).isLt⟩ d))
    (h1 : ∀ d : Fin 4096, x1 (ix2 q d) = Wf (ix2 ⟨(i 1).val, (i 1).isLt⟩ d))
    (h2 : x2 (ix2 (0 : Fin 1) q) = b2 (ix2 (0 : Fin 1) ⟨(i 1).val, (i 1).isLt⟩)) :
    k1_pay1 (F := Ideal) x0 x1 x2 (ix2 p q) = rowsProduct X Wf b2 i := by
  rw [mm_payload, h2]
  simp only [h0, h1]
  rfl

/-- The printed index maps over the 64 points: the activations' block moves with the result's block row, the folded
    weight's and the bias's blocks with the result's block column, nothing else moves, and the result's block indices stay
    in their ranges. -/
theorem mm_index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7
    ∧ win1_3.index t (1 : Fin 2) ≤ 7 :=
  (by decide +kernel : ∀ t : Fin grid1.N, _)

/-- Every block of the result is some point's: the back-and-forth walk reaches every block column in every block row. -/
theorem mm_index_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- What point t writes back is block t of the product of the entry contents. -/
theorem mm_flushed (c : Dev nD) (t : Fin cfg1.N) :
    (dat1 V c).flushed 3 t = ((cfg1.win 3).blk t).view.read (Elt Ideal)
      (rowsProduct (V c main_v0) (V c main_v2) (V c main_v1)) := by
  show (cfg1.win 3).cut (grid1.coords t) ((dat1 V c).after 3 t) = _
  rw [after1_3]
  unfold out1_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, e6, e7⟩ := mm_index_facts t
  funext j
  obtain ⟨p, q, rfl⟩ : ∃ (p : Fin 1024) (q : Fin 512), j = ix2 p q := ⟨j 0, j 1, eq_ix2 j⟩
  refine mm_block (V c main_v0) (V c main_v2) (V c main_v1) (iblk1 V c 0 t) (iblk1 V c 1 t) (iblk1 V c 2 t) p q
    (((cfg1.win 3).blk t).view.emb (ix2 p q)) ?_ ?_ ?_
  · intro d
    show V c main_v0 (((cfg1.win 0).blk t).view.emb (ix2 p d)) = V c main_v0 _
    refine congrArg (V c main_v0) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * d.val = d.val; omega
  · intro d
    show V c main_v2 (((cfg1.win 1).blk t).view.emb (ix2 q d)) = V c main_v2 _
    refine congrArg (V c main_v2) (funext fun a => Fin.ext ?_)
    match a with
    | ⟨0, _⟩ => show win1_1.index t (0 : Fin 2) * 512 + 1 * q.val = win1_3.index t (1 : Fin 2) * 512 + 1 * q.val; omega
    | ⟨1, _⟩ => show win1_1.index t (1 : Fin 2) * 4096 + 1 * d.val = d.val; omega
  · show V c main_v1 (((cfg1.win 2).blk t).view.emb (ix2 (0 : Fin 1) q)) = V c main_v1 _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 512 + 1 * q.val = win1_3.index t (1 : Fin 2) * 512 + 1 * q.val; omega

/-- An index of the result array is in point t's block iff each coordinate is in the block's range on its axis. -/
theorem mm_mem_blk (t : Fin cfg1.N) (i : S8192x4096.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v3).slice (win1_3.rect t)).set ↔ _
  rw [View.set_slice_whole, Rect.mem_set_unit]
  exact Iff.rfl

/-- The 64 blocks tile the result: (m, o) lies in the block of the point whose block indices are (m / 1024, o / 512). -/
theorem mm_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := mm_index_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mm_mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- After the launch the result array holds the product of the entry contents. -/
theorem mm_array (c : Dev nD) :
    (dat1 V c).arrAt 3 cfg1.N = rowsProduct (V c main_v0) (V c main_v2) (V c main_v1) :=
  (dat1 V c).arrAt_eq_of_cover 3 _ (fun t _ => mm_flushed V c t) mm_cover

end Cert.Lora

end
-- ==== Proof.KernelValue.lean ====
/-
  The idealized kernel's result as the specification's function of the five arguments.

  Walk the boundaries backwards from the result buffer. The last host stretch reshapes the product launch's flat [8192, 4096]
  result to [4, 2048, 4096]. The product launch leaves that flat array at rows-against-rows of the flattened activations (the
  first stretch's reshape of the activations), the folded weight (what the weight-folding launch left: the fold of the weight
  and the two low-rank factors, none of which anything before it wrote) and the bias as a row (the first stretch's reshape of
  the bias). A reshape keeps row-major positions: flat row 2048·b + s is (b, s), and entry o of the bias row is entry o of
  the bias. So at (b, s, o) the result is the contraction of x(b, s, ·) with row o of the folded weight, plus β(o).
-/
import proofs.«182044_g43508018709279_pilotgen1_583_22_alg».proof.Proof.KernelRun
import proofs.«182044_g43508018709279_pilotgen1_583_22_alg».proof.Proof.MmArray
import Idealize.ShloMosaic.Lib.StableHlo.Run

set_option maxRecDepth 16384

noncomputable section

namespace Cert.Lora

open Idealize.ShloMosaic Idealize.ShloMosaic.TcCoe Idealize.ShloMosaic.ValueIdx Idealize.SL.Sem
open Idealize.ShloMosaic.StableHlo
open Cert.KernelIdeal Cert.KernelIdeal.Gen

/-- The three reshapes around the product: flattening the activations' two leading axes, reading the bias as a row, and
    unflattening the product's rows give the kernel's function of the specification. -/
theorem unflatten_product (x : SX.Idx → EReal) (W : SW.Idx → EReal) (β : Sβ.Idx → EReal) (A : SA.Idx → EReal)
    (B : SB.Idx → EReal) (h1 : SX.ShapeCasts SF) (h2 : Sβ.ShapeCasts SR) (h3 : SF.ShapeCasts SX) :
    shapeCast SX (rowsProduct (shapeCast SF x h1) (folded W B A) (shapeCast SR β h2)) h3 = kernelOut x W β A B := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_apply _ h3 (ix3 b s o) (ix2 (⟨b.val * 2048 + s.val, by omega⟩ : Fin 8192) o)
    (by rw [Shape.rowMajor_val_two, Shape.rowMajor_val_three]; rfl)]
  unfold rowsProduct kernelOut kernelAt
  refine congrArg₂ (· + ·) (Finset.sum_congr rfl fun d _ => congrArg₂ (· * ·) ?_ rfl) ?_
  · exact shapeCast_apply x h1 _ (ix3 b s d) (by rw [Shape.rowMajor_val_two, Shape.rowMajor_val_three]; rfl)
  · exact shapeCast_apply β h2 _ (ix1 o) (by
      rw [Shape.rowMajor_val_two, Shape.rowMajor_val_one]
      show o.val = 0 * 4096 + o.val
      omega)

variable (m : (ℓ : Loc nD τ sig) → Buf (Elt Ideal) ℓ) (ρ : Dev nD → PrngReg)

/-- Nothing before the weight-folding launch writes an argument: at its entry each holds what it was launched with. -/
theorem entry_arg1 (c : Dev nD) : V1 m ρ c main_arg1 = m ((c : Thread nD τ).loc main_arg1) := by
  show StableHlo.after hostOps0 (W0 m ρ c) (Proc.devRef .tc main_arg1) = _
  after_results
theorem entry_arg3 (c : Dev nD) : V1 m ρ c main_arg3 = m ((c : Thread nD τ).loc main_arg3) := by
  show StableHlo.after hostOps0 (W0 m ρ c) (Proc.devRef .tc main_arg3) = _
  after_results
theorem entry_arg4 (c : Dev nD) : V1 m ρ c main_arg4 = m ((c : Thread nD τ).loc main_arg4) := by
  show StableHlo.after hostOps0 (W0 m ρ c) (Proc.devRef .tc main_arg4) = _
  after_results

/-- At the product launch's entry the flattened activations are the first stretch's reshape of the activations. -/
theorem entry_flat (c : Dev nD) :
    V2 m ρ c main_v0 = shapeCast S8192x4096 (m ((c : Thread nD τ).loc main_arg0)) shapeCasts_S4x2048x4096_S8192x4096 := by
  show W2 m ρ c (Proc.devRef .tc main_v0) = _
  rw [W2_of_ne m ρ c main_v0 (by decide)]
  show StableHlo.after hostOps0 (W0 m ρ c) (Proc.devRef .tc main_v0) = _
  after_results
  rfl

/-- At the product launch's entry the bias row is the first stretch's reshape of the bias. -/
theorem entry_row (c : Dev nD) :
    V2 m ρ c main_v1 = shapeCast S1x4096 (m ((c : Thread nD τ).loc main_arg2)) shapeCasts_S4096_S1x4096 := by
  show W2 m ρ c (Proc.devRef .tc main_v1) = _
  rw [W2_of_ne m ρ c main_v1 (by decide)]
  show StableHlo.after hostOps0 (W0 m ρ c) (Proc.devRef .tc main_v1) = _
  after_results
  rfl

/-- At the product launch's entry the folded-weight array holds the fold of the weight and the two low-rank factors. -/
theorem entry_folded (c : Dev nD) :
    V2 m ρ c main_v2 = folded (m ((c : Thread nD τ).loc main_arg1)) (m ((c : Thread nD τ).loc main_arg4))
      (m ((c : Thread nD τ).loc main_arg3)) := by
  show W2 m ρ c (Proc.devRef .tc (Pipeline.arrRef spec0 3)) = _
  rw [W2_arr m ρ c 3, prep_array (V1 m ρ) c, entry_arg1, entry_arg3, entry_arg4]

/-- The result buffer at the last boundary holds the kernel's function of the five arguments as launched. -/
theorem result_value (c : Dev nD) :
    W4 m ρ c (Proc.devRef .tc main_v4) = kernelOut (m ((c : Thread nD τ).loc main_arg0)) (m ((c : Thread nD τ).loc main_arg1))
      (m ((c : Thread nD τ).loc main_arg2)) (m ((c : Thread nD τ).loc main_arg3)) (m ((c : Thread nD τ).loc main_arg4)) := by
  have e4 : W4 m ρ c (Proc.devRef .tc main_v4)
      = shapeCast S4x2048x4096 (W3 m ρ c (Proc.devRef .tc main_v3)) shapeCasts_S8192x4096_S4x2048x4096 := by
    show StableHlo.after hostOps2 (W3 m ρ c) (Proc.devRef .tc main_v4) = _
    after_results
    rfl
  have e3 : W3 m ρ c (Proc.devRef .tc main_v3)
      = rowsProduct (V2 m ρ c main_v0) (V2 m ρ c main_v2) (V2 m ρ c main_v1) :=
    (W3_arr m ρ c 3).trans (mm_array (V2 m ρ) c)
  rw [e4, e3, entry_flat, entry_row, entry_folded]
  exact unflatten_product _ _ _ _ _ _ _ _

end Cert.Lora

end
-- ==== Proof.lean ====
/-
  A LoRA linear layer computed two ways agrees on finite inputs.

  The kernel folds the low-rank update into the weight, W' = W + (B · A) · c, in one launch, and in a second launch takes
  y = x · W'ᵀ + β with one full contraction per output element. The reference computes (x · Wᵀ + β) + ((x · Aᵀ) · Bᵀ) · c. Read
  over the extended reals, with every change of float format the identity, the two results are the same array when every
  input entry is a real number: distribute x over W', exchange the sums over the model axis and the rank axis, regroup
  (Proof/Spec.lean). The precondition says exactly that every entry is real (Proof/Finite.lean).

  The kernel's side: its run ends with every buffer at the last boundary's contents (Proof/KernelRun.lean); each launch leaves
  its output array at one whole-array function of what it was entered with (Proof/PrepArray.lean, Proof/MmArray.lean, over
  the two bodies' stored values read at coordinates, Proof/Payloads.lean); walking the boundaries back from the result
  buffer gives the kernel's function of the arguments (Proof/KernelValue.lean). The reference's side: its run's result
  term, read index by index, is the reference's function (Proof/RefStages.lean). The three frames are the generated frame
  certificates (the reference's is its run with the result dropped); the idealization rewrote nothing, so there is nothing
  to preserve.
-/
import proofs.«182044_g43508018709279_pilotgen1_583_22_alg».proof.Defs
import proofs.«182044_g43508018709279_pilotgen1_583_22_alg».proof.Proof.Gen.Kernel
import proofs.«182044_g43508018709279_pilotgen1_583_22_alg».proof.Proof.Gen.Kernel.Skeleton
import proofs.«182044_g43508018709279_pilotgen1_583_22_alg».proof.Proof.Gen.Kernel.Launch
import proofs.«182044_g43508018709279_pilotgen1_583_22_alg».proof.Proof.Gen.Kernel.Points
import proofs.«182044_g43508018709279_pilotgen1_583_22_alg».proof.Proof.Gen.Kernel.Frame
import proofs.«182044_g43508018709279_pilotgen1_583_22_alg».proof.Proof.Gen.KernelIdeal
import proofs.«182044_g43508018709279_pilotgen1_583_22_alg».proof.Proof.Gen.KernelIdeal.Skeleton
import proofs.«182044_g43508018709279_pilotgen1_583_22_alg».proof.Proof.Gen.KernelIdeal.Launch
import proofs.«182044_g43508018709279_pilotgen1_583_22_alg».proof.Proof.Gen.KernelIdeal.Points
import proofs.«182044_g43508018709279_pilotgen1_583_22_alg».proof.Proof.Gen.KernelIdeal.Frame
import proofs.«182044_g43508018709279_pilotgen1_583_22_alg».proof.Proof.Gen.ReferenceIdeal
import proofs.«182044_g43508018709279_pilotgen1_583_22_alg».proof.Proof.Gen.ReferenceIdeal.Run
import proofs.«182044_g43508018709279_pilotgen1_583_22_alg».proof.Proof.Gen.ReferenceIdeal.Read
import proofs.«182044_g43508018709279_pilotgen1_583_22_alg».proof.Proof.Gen.Pre_finite_inputs
import proofs.«182044_g43508018709279_pilotgen1_583_22_alg».proof.Proof.Spec
import proofs.«182044_g43508018709279_pilotgen1_583_22_alg».proof.Proof.Finite
import proofs.«182044_g43508018709279_pilotgen1_583_22_alg».proof.Proof.RefStages
import proofs.«182044_g43508018709279_pilotgen1_583_22_alg».proof.Proof.KernelRun
import proofs.«182044_g43508018709279_pilotgen1_583_22_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments, all of whose entries are real, both programs end with the result
    array at the kernel's function of the arguments: the kernel by its run read back through the boundaries, the reference
    because its own function agrees with the kernel's on real entries. -/
theorem algebraic : Cert.algebraic_KernelIdeal_ReferenceIdeal := by
  intro m ρ m' ρ' hpre hagree
  refine ⟨fun c => Cert.Lora.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Lora.result_value m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨hx, hW, hβ, hA, hB⟩ := Cert.Lora.allReal_of_finite_inputs _ _ _ _ _ (hpre c)
    rw [(h c).1, Cert.ReferenceIdeal.Read.val_main_v8_eq, Cert.Lora.ref_stage_eq, (hagree c).1, (hagree c).2.1,
      (hagree c).2.2.1, (hagree c).2.2.2.1, (hagree c).2.2.2.2]
    exact (Cert.Lora.kernelOut_eq_refOut _ _ _ _ _ hx hW hβ hA hB).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
